-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S100000x128 .f32) (main_arg1 : IVec S1600000 32) (main_arg2 : IVec S1600000 32) (main_arg3 : FVec F S1600000 .f32) (main_arg4 : FVec F S128x128 .f32) (main_arg5 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg3
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S1600000x1 : Shape := ⟨2, ![1600000, 1]⟩
abbrev S_ : Shape := ⟨0, ![]⟩
abbrev S1600000x128 : Shape := ⟨2, ![1600000, 128]⟩
abbrev S1x128 : Shape := ⟨2, ![1, 128]⟩
abbrev S5000x128 : Shape := ⟨2, ![5000, 128]⟩

abbrev nBuf : Space → Nat
  | .hbm => 25
  | .vmem => 6
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S128x128, .f32⟩
  | .hbm, ⟨5, _⟩ => ⟨S128, .f32⟩
  | .hbm, ⟨6, _⟩ => ⟨S1600000x1, .f32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000x1, .i32⟩
  | .hbm, ⟨15, _⟩ => ⟨S1600000x128, .f32⟩
  | .hbm, ⟨16, _⟩ => ⟨S1600000x128, .f32⟩
  | .hbm, ⟨17, _⟩ => ⟨S1600000x128, .f32⟩
  | .hbm, ⟨18, _⟩ => ⟨S_, .f32⟩
  | .hbm, ⟨19, _⟩ => ⟨S100000x128, .f32⟩
  | .hbm, ⟨20, _⟩ => ⟨S1600000x1, .i32⟩
  | .hbm, ⟨21, _⟩ => ⟨S100000x128, .f32⟩
  | .hbm, ⟨22, _⟩ => ⟨S128x128, .f32⟩
  | .hbm, ⟨23, _⟩ => ⟨S1x128, .f32⟩
  | .hbm, ⟨24, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  transposes_S128x128_S128x128_1_0 : S128x128.Transposes [1, 0] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v12) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v14) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S1600000x1 : Shape := ⟨2, ![1600000, 1]⟩
abbrev S_ : Shape := ⟨0, ![]⟩
abbrev S1600000x128 : Shape := ⟨2, ![1600000, 128]⟩
abbrev S1x128 : Shape := ⟨2, ![1, 128]⟩

abbrev nBuf : Space → Nat
  | .hbm => 26
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S128x128, .f32⟩
  | .hbm, ⟨5, _⟩ => ⟨S128, .f32⟩
  | .hbm, ⟨6, _⟩ => ⟨S1600000x1, .f32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000x1, .i32⟩
  | .hbm, ⟨15, _⟩ => ⟨S1600000x128, .f32⟩
  | .hbm, ⟨16, _⟩ => ⟨S1600000x128, .f32⟩
  | .hbm, ⟨17, _⟩ => ⟨S1600000x128, .f32⟩
  | .hbm, ⟨18, _⟩ => ⟨S_, .f32⟩
  | .hbm, ⟨19, _⟩ => ⟨S100000x128, .f32⟩
  | .hbm, ⟨20, _⟩ => ⟨S1600000x1, .i32⟩
  | .hbm, ⟨21, _⟩ => ⟨S100000x128, .f32⟩
  | .hbm, ⟨22, _⟩ => ⟨S100000x128, .f32⟩
  | .hbm, ⟨23, _⟩ => ⟨S1x128, .f32⟩
  | .hbm, ⟨24, _⟩ => ⟨S100000x128, .f32⟩
  | .hbm, ⟨25, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩

abbrev nD : Nat := 1
abbrev τ : Topo := Topo.v7x

variable {F : FTy → Type} [FloatOps F]

class Facts₀ : Prop where
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_1_0_0_n_n_wf : DotDims.WF S100000x128 S128x128 S100000x128 [1] [1] [0] [0] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_1_0_0_n_n : DotDims S100000x128 S128x128 S100000x128 where
  lhsContracting := [1]
  rhsContracting := [1]
  lhsNonContracting := [0]
  rhsNonContracting := [0]
  lhsBatch := []
  rhsBatch := []
  wf := dot_S100000x128_S128x128_S100000x128_1_1_0_0_n_n_wf

class Facts : Prop extends Facts₀ where

variable [Facts]
-- ==== Proof.LibMatmulAt.lean ====
/-
  A matrix product accumulated into the zero splat, read at an index. With the standard dimension numbers (an M × K
  matrix times a K × N one, contracted over the left operand's columns and the right operand's rows) the entry at row `a`
  and column `b` is the sum over the contracted coordinate `k` of A(a, k) · B(k, b). At the ideal values, where the
  product is that exact sum; nothing here depends on a program.
-/
import Idealize.ShloMosaic.Lib.StackMember
import Idealize.ShloMosaic.Lib.ValueIdx
import Idealize.ShloMosaic.Lib.KernelVsHost
import Idealize.ShloMosaic.PureOps.Ideal.Laws

namespace Cert.KernelIdeal.Hand

open Idealize.ShloMosaic Idealize.ShloMosaic.ValueIdx

/-- A record of dimension numbers equal to the plain ones (its lists are `[1] [0] [0] [1] [] []`; the equation is `rfl`
    at a literal record, whatever its well-formedness proof): the product into the zero splat is, entry by entry, the
    sum over the contracted coordinate of the entries' products. -/
theorem matmul_zero_plain_apply {M K N : Nat} {φ₁ φ₂ : FTy}
    (d : DotDims ⟨2, ![M, K]⟩ ⟨2, ![K, N]⟩ ⟨2, ![M, N]⟩) (hd : d = DotDims.plain M K N) (prec : Option ContractPrecision)
    (A : FVec Ideal ⟨2, ![M, K]⟩ φ₁) (B : FVec Ideal ⟨2, ![K, N]⟩ φ₂) (j : (⟨2, ![M, N]⟩ : Shape).Idx) :
    matmul d prec A B (constant ⟨2, ![M, N]⟩ .f32 0x00000000#32) j = ∑ k : Fin K, A (ix2 (j 0) k) * B (ix2 k (j 1)) := by
  subst hd
  rw [matmul_zero_eq_dotGeneral]
  conv_lhs => rw [eq_ix2 j]
  exact StackMember.dotGeneral_plain_apply prec A B (j 0) (j 1)

/-- The host's product with the same dimension numbers is the same sum. -/
theorem dotGeneral_plain_apply' {M K N : Nat} {φ₁ φ₂ : FTy}
    (d : DotDims ⟨2, ![M, K]⟩ ⟨2, ![K, N]⟩ ⟨2, ![M, N]⟩) (hd : d = DotDims.plain M K N) (prec : Option ContractPrecision)
    (A : FVec Ideal ⟨2, ![M, K]⟩ φ₁) (B : FVec Ideal ⟨2, ![K, N]⟩ φ₂) (j : (⟨2, ![M, N]⟩ : Shape).Idx) :
    Host.dotGeneral d prec A B j = ∑ k : Fin K, A (ix2 (j 0) k) * B (ix2 k (j 1)) := by
  subst hd
  conv_lhs => rw [eq_ix2 j]
  exact StackMember.dotGeneral_plain_apply prec A B (j 0) (j 1)

end Cert.KernelIdeal.Hand
-- ==== Proof.LibAffineAt.lean ====
/-
  An affine map x · W + b read at one entry, in the two spellings a tiled kernel and a host program give it, and a bias
  vector recast as a one-row matrix. Nothing here depends on a program.

  A kernel that tiles the rows multiplies its block of M rows by the whole K × N weight matrix into a zero accumulator,
  after a change of float format (the identity at the ideal values), and adds the bias, a one-row matrix broadcast down
  the M rows. A host program takes the matrix product of the whole matrices and adds the same row broadcast down the rows.
  At the ideal values both read at row p and column q as
      Σ_k x(p, k) · w(k, q) + b(0, q),
  one exact sum and one addition, so the two sides meet with no finiteness hypothesis (`block_at`, `host_at`). A vector of
  n entries recast as a one-row matrix is the vector broadcast along axis 1 into one row (`rowCast_eq`): how a kernel's
  wrapper and a jnp reference each lay a bias vector out before adding it.
-/
import proofs.«114713_j54554674594289_1_alg».proof.Proof.LibMatmulAt
import Idealize.ShloMosaic.Lib.Pipeline.Value
import Idealize.ShloMosaic.Lib.ValueIdx
import Idealize.ShloMosaic.Lib.KernelVsHost
import Idealize.ShloMosaic.PureOps.Ideal.Laws

noncomputable section

namespace Cert.LibAffineAt

open Idealize.ShloMosaic Idealize.ShloMosaic.ValueIdx

/-- A one-row matrix broadcast down M rows in the kernel's spelling, read at (p, q), is the row at (0, q). -/
theorem broadcastTo_oneRow_apply {α : Type} {M N : Nat} (b : (⟨2, ![1, N]⟩ : Shape).Idx → α)
    (hb : (⟨2, ![1, N]⟩ : Shape).Broadcasts ⟨2, ![M, N]⟩) (p : Fin M) (q : Fin N) :
    broadcastTo ⟨2, ![M, N]⟩ b hb (ix2 p q) = b (ix2 (0 : Fin 1) q) := by
  refine broadcastTo_apply b hb (ix2 p q) (ix2 (0 : Fin 1) q) ?_
  intro a
  match a with
  | ⟨0, _⟩ => rfl
  | ⟨1, _⟩ =>
    show q.val = if N = 1 then 0 else q.val
    split
    · have := q.isLt; omega
    · rfl

/-- The kernel's arithmetic on a block: the block times the weights into the zero accumulator, plus the bias row laid along
    every row, at (p, q). -/
theorem block_at {M K N : Nat} (d : DotDims ⟨2, ![M, K]⟩ ⟨2, ![K, N]⟩ ⟨2, ![M, N]⟩) (hd : d = DotDims.plain M K N)
    (hb : (⟨2, ![1, N]⟩ : Shape).Broadcasts ⟨2, ![M, N]⟩)
    (x : FVec Ideal ⟨2, ![M, K]⟩ .f32) (w : FVec Ideal ⟨2, ![K, N]⟩ .f32) (b : FVec Ideal ⟨2, ![1, N]⟩ .f32)
    (h1 : FTy.bf16.bits < FTy.f32.bits) (p : Fin M) (q : Fin N) :
    addf (matmul d none (truncf .bf16 x h1) (truncf .bf16 w h1) (constant ⟨2, ![M, N]⟩ .f32 0x00000000#32)) (broadcastTo ⟨2, ![M, N]⟩ b hb) (ix2 p q)
      = (∑ k : Fin K, x (ix2 p k) * w (ix2 k q)) + b (ix2 (0 : Fin 1) q) := by
  refine (addf_apply _ _ _).trans ?_
  refine congrArg₂ (· + ·) ?_ (broadcastTo_oneRow_apply b hb p q)
  exact Cert.KernelIdeal.Hand.matmul_zero_plain_apply d hd none (truncf .bf16 x h1) (truncf .bf16 w h1) (ix2 p q)

/-- The host's affine map at (r, q): the product's exact sum plus the bias row's entry. -/
theorem host_at {M K N : Nat} (d : DotDims ⟨2, ![M, K]⟩ ⟨2, ![K, N]⟩ ⟨2, ![M, N]⟩) (hd : d = DotDims.plain M K N)
    (hbc : (⟨2, ![1, N]⟩ : Shape).BroadcastsInDim ⟨2, ![M, N]⟩ ![0, 1])
    (x : FVec Ideal ⟨2, ![M, K]⟩ .f32) (w : FVec Ideal ⟨2, ![K, N]⟩ .f32) (b : FVec Ideal ⟨2, ![1, N]⟩ .f32) (r : Fin M) (q : Fin N) :
    addf (Host.dotGeneral d none x w) (broadcastInDim ⟨2, ![M, N]⟩ ![0, 1] hbc b) (ix2 r q)
      = (∑ k : Fin K, x (ix2 r k) * w (ix2 k q)) + b (ix2 (0 : Fin 1) q) := by
  refine (addf_apply _ _ _).trans ?_
  refine congrArg₂ (· + ·) ?_ (broadcastInDim_oneRow_apply hbc b r q)
  exact Cert.KernelIdeal.Hand.dotGeneral_plain_apply' d hd none x w (ix2 r q)

/-- A vector of n entries recast as a one-row matrix is the vector broadcast along axis 1 into one row: both read the
    vector's entry k at (0, k). Any element type. -/
theorem rowCast_eq {α : Type} {n : Nat} (b : (⟨1, ![n]⟩ : Shape).Idx → α)
    (h1 : (⟨1, ![n]⟩ : Shape).ShapeCasts ⟨2, ![1, n]⟩) (hd : (⟨1, ![n]⟩ : Shape).BroadcastsInDim ⟨2, ![1, n]⟩ ![1]) :
    shapeCast ⟨2, ![1, n]⟩ b h1 = broadcastInDim ⟨2, ![1, n]⟩ ![1] hd b := by
  funext j
  have hj0 : (j 0).val = 0 := by have := (j 0).isLt; have e : (j 0).val < 1 := this; omega
  have e1 := shapeCast_apply b h1 j (ix1 (j 1)) (by
    rw [Shape.rowMajor_val_two, Shape.rowMajor_val_one]; show (j 1).val = (j 0).val * n + (j 1).val; rw [hj0]; omega)
  have e2 := broadcastInDim_apply ![1] hd b j (ix1 (j 1)) (by
    intro a
    match a with
    | ⟨0, _⟩ =>
      show (j 1).val = if n = 1 then 0 else (j 1).val
      split
      · have := (j 1).isLt; have e : (j 1).val < n := this; omega
      · rfl)
  exact e1.trans e2.symm

end Cert.LibAffineAt

end
-- ==== Proof.DenseSpec.lean ====
/-
  The dense step of a graph-convolution layer, entry by entry on the extended reals. Nothing here depends on a program.

  From the aggregated features A (M nodes, K features each), a weight matrix and a bias, the layer's output at node n and
  output feature o is one exact finite sum and one addition,
      Σ_k A(n, k) · W(o, k) + b(o).
  Two arrangements of the same data occur. `affine A Wt r` takes the weights already transposed (Wt(k, o) = W(o, k)) and
  the bias as a one-row matrix r, which is how a kernel that tiles the rows of A is handed them. `affineT A W b` takes
  W as stored (one row per output feature) and b as a vector. Reading the transpose and the one-row recast entry by
  entry makes the first the second (`affine_eq_affineT`): the two sums have the same terms in the same order, so no
  property of the entries — in particular no finiteness — is used.
-/
import Idealize.ShloMosaic.Lib.Pipeline.Value
import Idealize.ShloMosaic.Lib.ValueIdx
import Idealize.ShloMosaic.Lib.ValueLayout
import Idealize.ShloMosaic.PureOps.Ideal

noncomputable section

open scoped BigOperators

namespace Cert.Dense

open Idealize.ShloMosaic Idealize.ShloMosaic.ValueIdx

/-- A · Wt + r with Wt a K × N matrix and r a one-row matrix laid along every row: (n, o) ↦ Σ_k A(n, k) · Wt(k, o) + r(0, o). -/
def affine {M K N : Nat} (A : FVec Ideal ⟨2, ![M, K]⟩ .f32) (Wt : FVec Ideal ⟨2, ![K, N]⟩ .f32)
    (r : FVec Ideal ⟨2, ![1, N]⟩ .f32) : FVec Ideal ⟨2, ![M, N]⟩ .f32 :=
  fun i => (∑ k : Fin K, A (ix2 (i 0) k) * Wt (ix2 k (i 1))) + r (ix2 (0 : Fin 1) (i 1))

/-- A · Wᵀ + b with W an N × K matrix (one row per output feature) and b a vector: (n, o) ↦ Σ_k A(n, k) · W(o, k) + b(o). -/
def affineT {M K N : Nat} (A : FVec Ideal ⟨2, ![M, K]⟩ .f32) (W : FVec Ideal ⟨2, ![N, K]⟩ .f32)
    (b : FVec Ideal ⟨1, ![N]⟩ .f32) : FVec Ideal ⟨2, ![M, N]⟩ .f32 :=
  fun i => (∑ k : Fin K, A (ix2 (i 0) k) * W (ix2 (i 1) k)) + b (ix1 (i 1))

/-- A vector of N entries recast as a one-row matrix reads, at (0, q), the vector's entry q: the row-major position of
    (0, q) in a 1 × N matrix is q. -/
theorem rowCast_at {α : Type} {N : Nat} (b : (⟨1, ![N]⟩ : Shape).Idx → α)
    (h : (⟨1, ![N]⟩ : Shape).ShapeCasts ⟨2, ![1, N]⟩) (q : Fin N) :
    shapeCast ⟨2, ![1, N]⟩ b h (ix2 (0 : Fin 1) q) = b (ix1 q) := by
  refine shapeCast_apply b h (ix2 (0 : Fin 1) q) (ix1 q) ?_
  rw [Shape.rowMajor_val_two, Shape.rowMajor_val_one]
  show q.val = 0 * N + q.val
  omega

/-- With the weights transposed and the bias recast as one row, `affine` is `affineT` of the weights as stored and the
    bias vector: term by term Wt(k, o) is W(o, k), and r(0, o) is b(o). -/
theorem affine_eq_affineT {M K N : Nat} (A : FVec Ideal ⟨2, ![M, K]⟩ .f32) (W : FVec Ideal ⟨2, ![N, K]⟩ .f32)
    (b : FVec Ideal ⟨1, ![N]⟩ .f32) (hT : (⟨2, ![N, K]⟩ : Shape).Transposes [1, 0] ⟨2, ![K, N]⟩)
    (hS : (⟨1, ![N]⟩ : Shape).ShapeCasts ⟨2, ![1, N]⟩) :
    affine A (transpose ⟨2, ![K, N]⟩ [1, 0] W hT) (shapeCast ⟨2, ![1, N]⟩ b hS) = affineT A W b := by
  funext i
  unfold affine affineT
  refine congrArg₂ (· + ·) (Finset.sum_congr rfl fun k _ => ?_) (rowCast_at b hS (i 1))
  exact congrArg (A (ix2 (i 0) k) * ·) (transpose_ix2_apply W hT k (i 1))

end Cert.Dense

end
-- ==== Proof.KernelTile.lean ====
/-
  One tile of the kernel. The body loads a block of 5000 rows of the aggregated features, the whole 128 × 128 matrix of
  transposed weights and the one-row bias, recasts the first two to bf16 (the identity on the ideal values), multiplies
  them into a zero accumulator and adds the bias row laid along every row. Entry (p, q) of what it stores is therefore
      Σ_k x(p, k) · w(k, q) + r(0, q),
  and if row p of the block is row n of the whole array, that is entry (n, q) of `Dense.affine` of the whole arrays.
-/
import proofs.«114713_j54554674594289_1_alg».proof.Proof.Gen.KernelIdeal.Skeleton
import proofs.«114713_j54554674594289_1_alg».proof.Proof.LibAffineAt
import proofs.«114713_j54554674594289_1_alg».proof.Proof.DenseSpec

noncomputable section

open scoped BigOperators

namespace Cert.KernelIdeal.Tile

open Cert.KernelIdeal Cert.KernelIdeal.Gen Idealize.ShloMosaic Idealize.ShloMosaic.ValueIdx

/-- The stored value at (p, q): the block's row p against column q of the weights, plus the bias row's entry q. The
    casts of a block to its own shape are the identity, and so is the change of float format. -/
theorem pay_at (x0 : Vec Ideal S5000x128 .f32) (x1 : Vec Ideal S128x128 .f32) (x2 : Vec Ideal S1x128 .f32)
    (p : Fin 5000) (q : Fin 128) :
    k0_pay1 (F := Ideal) x0 x1 x2 (ix2 p q) = (∑ k : Fin 128, x0 (ix2 p k) * x1 (ix2 k q)) + x2 (ix2 (0 : Fin 1) q) := by
  unfold k0_pay1
  simp only [shapeCast_self]
  exact Cert.LibAffineAt.block_at _ rfl _ x0 x1 x2 _ p q

/-- A tile against the whole arrays: where row `y 0` of the block x0 is row `i 0` of A, the block x1 is Wt, and the
    block x2 is r, with `y 1 = i 1` the column, the stored value at `y` is `Dense.affine A Wt r` at `i`. -/
theorem tile_at (A : FVec Ideal S100000x128 .f32) (Wt : FVec Ideal S128x128 .f32) (r : FVec Ideal S1x128 .f32)
    (x0 : Vec Ideal S5000x128 .f32) (x1 : Vec Ideal S128x128 .f32) (x2 : Vec Ideal S1x128 .f32)
    (y : S5000x128.Idx) (i : S100000x128.Idx)
    (h0 : ∀ k : Fin 128, x0 (ix2 (y 0) k) = A (ix2 (i 0) k))
    (h1 : ∀ k : Fin 128, x1 (ix2 k (y 1)) = Wt (ix2 k (i 1)))
    (h2 : x2 (ix2 (0 : Fin 1) (y 1)) = r (ix2 (0 : Fin 1) (i 1))) :
    k0_pay1 (F := Ideal) x0 x1 x2 y = Cert.Dense.affine A Wt r i := by
  have e : k0_pay1 (F := Ideal) x0 x1 x2 y = k0_pay1 (F := Ideal) x0 x1 x2 (ix2 (y 0) (y 1)) :=
    congrArg (k0_pay1 (F := Ideal) x0 x1 x2) (eq_ix2 y)
  refine e.trans ((pay_at x0 x1 x2 (y 0) (y 1)).trans ?_)
  unfold Cert.Dense.affine
  exact congrArg₂ (· + ·) (Finset.sum_congr rfl fun k _ => congrArg₂ (· * ·) (h0 k) (h1 k)) h2

end Cert.KernelIdeal.Tile

end
-- ==== Proof.KernelArray.lean ====
/-
  From tiles to the whole output array. The grid has 20 points; point t reads rows 5000·t … 5000·t + 4999 of the aggregated
  features, the whole transposed weights and the whole bias row, and writes back rows 5000·t … 5000·t + 4999 of the output.
  Entry (p, q) of the tile written at point t is entry (5000·t + p, q) of `Dense.affine` of the three whole arrays, the 20
  row blocks cover the output, and so the output array ends holding `Dense.affine` of the arrays the region found.

  The block reads are stated for ANY contents of the arrays: which entry of an array a block's entry is depends on the
  block index alone, never on what the array holds.
-/
import proofs.«114713_j54554674594289_1_alg».proof.Proof.Gen.KernelIdeal.Value
import proofs.«114713_j54554674594289_1_alg».proof.Proof.KernelTile

noncomputable section

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)

theorem hz : (![0, 0] : Fin 2 → Nat) = fun _ => 0 := funext fun a => by fin_cases a <;> rfl

/-- The block indices over the grid: the feature rows and the output rows move with the point, the weights and the bias
    row stay at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-! ## Reading a block of an array, whatever the array holds -/

/-- Row p of the feature block at point t is row 5000·t + p of the array it is a block of. -/
theorem read0 (f : FVec Ideal S100000x128 .f32) (t : Fin cfg0.N) (y : S5000x128.Idx) (i : S100000x128.Idx)
    (h0 : (i 0).val = t.val * 5000 + (y 0).val) (h1 : (i 1).val = (y 1).val) :
    ((cfg0.win 0).blk t).view.read (Elt Ideal) f y = f i := by
  obtain ⟨e0, e1, -⟩ := idx_facts t
  have h : ((cfg0.win 0).blk t).view.emb y = i := by
    funext a; apply Fin.ext
    match a with
    | ⟨0, _⟩ => show win0_0.index t (0 : Fin 2) * 5000 + 1 * (y 0).val = (i 0).val; omega
    | ⟨1, _⟩ => show win0_0.index t (1 : Fin 2) * 128 + 1 * (y 1).val = (i 1).val; omega
  show f (((cfg0.win 0).blk t).view.emb y) = f i
  rw [h]

/-- The weights' block is the whole array at every point. -/
theorem read1 (f : FVec Ideal S128x128 .f32) (t : Fin cfg0.N) (y : S128x128.Idx) :
    ((cfg0.win 1).blk t).view.read (Elt Ideal) f y = f y := by
  obtain ⟨-, -, e2, e3, -⟩ := idx_facts t
  have h : ((cfg0.win 1).blk t).view.emb y = y := by
    funext a; apply Fin.ext
    match a with
    | ⟨0, _⟩ => show win0_1.index t (0 : Fin 2) * 128 + 1 * (y 0).val = (y 0).val; omega
    | ⟨1, _⟩ => show win0_1.index t (1 : Fin 2) * 128 + 1 * (y 1).val = (y 1).val; omega
  show f (((cfg0.win 1).blk t).view.emb y) = f y
  rw [h]

/-- The bias row's block is the whole row at every point. -/
theorem read2 (f : FVec Ideal S1x128 .f32) (t : Fin cfg0.N) (y : S1x128.Idx) :
    ((cfg0.win 2).blk t).view.read (Elt Ideal) f y = f y := by
  obtain ⟨-, -, -, -, e4, e5, -⟩ := idx_facts t
  have h : ((cfg0.win 2).blk t).view.emb y = y := by
    funext a; apply Fin.ext
    match a with
    | ⟨0, _⟩ => show win0_2.index t (0 : Fin 2) * 1 + 1 * (y 0).val = (y 0).val; omega
    | ⟨1, _⟩ => show win0_2.index t (1 : Fin 2) * 128 + 1 * (y 1).val = (y 1).val; omega
  show f (((cfg0.win 2).blk t).view.emb y) = f y
  rw [h]

/-- Row p of the output block at point t is row 5000·t + p of the output array, -/
theorem out_row (t : Fin cfg0.N) (y : S5000x128.Idx) :
    ((((cfg0.win 3).blk t).view.emb y) 0).val = t.val * 5000 + (y 0).val := by
  obtain ⟨-, -, -, -, -, -, e6, e7⟩ := idx_facts t
  show win0_3.index t (0 : Fin 2) * 5000 + 1 * (y 0).val = _
  omega

/-- and its columns are the array's. -/
theorem out_col (t : Fin cfg0.N) (y : S5000x128.Idx) :
    ((((cfg0.win 3).blk t).view.emb y) 1).val = (y 1).val := by
  obtain ⟨-, -, -, -, -, -, e6, e7⟩ := idx_facts t
  show win0_3.index t (1 : Fin 2) * 128 + 1 * (y 1).val = _
  omega

/-- A staging buffer's contents P, written back at point t, are block t of an array G as soon as P at each entry is G at
    the entry's place in the array: the output window's blocks are whole, so nothing is cut off the buffer. -/
theorem writeback_eq (P : Vec Ideal S5000x128 .f32) (G : FVec Ideal S100000x128 .f32) (t : Fin cfg0.N)
    (h : ∀ j : S5000x128.Idx, P j = G (((cfg0.win 3).blk t).view.emb j)) :
    (cfg0.win 3).cut (grid0.coords t) P = ((cfg0.win 3).blk t).view.read (Elt Ideal) G :=
  funext fun j => h j

/-! ## The arrays the region found -/

variable (m : (ℓ : Loc nD τ sig) → Buf (Elt Ideal) ℓ)

/-- Each input window's block at a point is its array's block, the array being what the region found. -/
theorem iblk0 (c : Dev nD) (t : Fin cfg0.N) :
    iblk m c 0 t = ((cfg0.win 0).blk t).view.read (Elt Ideal) (V m c main_v12) := rfl
theorem iblk1 (c : Dev nD) (t : Fin cfg0.N) :
    iblk m c 1 t = ((cfg0.win 1).blk t).view.read (Elt Ideal) (V m c main_v13) := rfl
theorem iblk2 (c : Dev nD) (t : Fin cfg0.N) :
    iblk m c 2 t = ((cfg0.win 2).blk t).view.read (Elt Ideal) (V m c main_v14) := rfl

/-- What point t writes back is block t of `Dense.affine` of the three arrays the region found. -/
theorem flushed_eq (c : Dev nD) (t : Fin cfg0.N) :
    (dats m 0 c).flushed 3 t = ((cfg0.win 3).blk t).view.read (Elt Ideal)
      (Cert.Dense.affine (M := 100000) (K := 128) (N := 128) (V m c main_v12) (V m c main_v13) (V m c main_v14)) := by
  rw [Value.flushed3]
  unfold out0_3
  rw [View.canon_unit_zero hz]
  simp only [View.ld_unit_zero (S := S5000x128) hz, View.ld_unit_zero (S := S128x128) hz, View.ld_unit_zero (S := S1x128) hz]
  refine writeback_eq (k0_pay1 (F := Ideal) (iblk m c 0 t) (iblk m c 1 t) (iblk m c 2 t))
    (Cert.Dense.affine (M := 100000) (K := 128) (N := 128) (V m c main_v12) (V m c main_v13) (V m c main_v14)) t fun j => ?_
  refine Cert.KernelIdeal.Tile.tile_at (V m c main_v12) (V m c main_v13) (V m c main_v14)
    (iblk m c 0 t) (iblk m c 1 t) (iblk m c 2 t) j (((cfg0.win 3).blk t).view.emb j) (fun k => ?_) (fun k => ?_) ?_
  · rw [iblk0 m c t]
    exact read0 (V m c main_v12) t (ix2 (j 0) k) (ix2 ((((cfg0.win 3).blk t).view.emb j) 0) k) (out_row t j) rfl
  · rw [iblk1 m c t, read1 (V m c main_v13) t (ix2 k (j 1))]
    refine congrArg (V m c main_v13 : FVec Ideal S128x128 .f32) (funext fun a => Fin.ext ?_)
    match a with
    | ⟨0, _⟩ => rfl
    | ⟨1, _⟩ => exact (out_col t j).symm
  · rw [iblk2 m c t, read2 (V m c main_v14) t (ix2 (0 : Fin 1) (j 1))]
    refine congrArg (V m c main_v14 : FVec Ideal S1x128 .f32) (funext fun a => Fin.ext ?_)
    match a with
    | ⟨0, _⟩ => rfl
    | ⟨1, _⟩ => exact (out_col t j).symm

/-- An index of the output array is in point t's block iff each coordinate is in the block's range on its axis. -/
theorem mem_blk (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v15).slice (win0_3.rect t)).set ↔ _
  rw [View.set_slice_whole, Rect.mem_set_unit]
  exact Iff.rfl

/-- Row n of the output lies in the block of point n / 5000: the 20 row blocks cover the array. -/
theorem cover (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hN : grid0.N = 20 := N_0
  obtain ⟨t, ht⟩ : ∃ t : Fin cfg0.N, t.val = (i 0).val / 5000 :=
    ⟨⟨(i 0).val / 5000, by show (i 0).val / 5000 < grid0.N; omega⟩, rfl⟩
  obtain ⟨-, -, -, -, -, -, e6, e7⟩ := idx_facts t
  refine ⟨t, flush0_3 t, ?_⟩
  rw [mem_blk]
  intro a
  match a with
  | ⟨0, _⟩ =>
    show win0_3.index t (0 : Fin 2) * 5000 ≤ (i 0).val ∧ (i 0).val < win0_3.index t (0 : Fin 2) * 5000 + 5000
    omega
  | ⟨1, _⟩ =>
    show win0_3.index t (1 : Fin 2) * 128 ≤ (i 1).val ∧ (i 1).val < win0_3.index t (1 : Fin 2) * 128 + 128
    omega

/-- The output array after the run: `Dense.affine` of the aggregated features, the transposed weights and the bias row
    as the region found them. -/
theorem final (c : Dev nD) :
    (dats m 0 c).arrAt 3 cfg0.N
      = Cert.Dense.affine (M := 100000) (K := 128) (N := 128) (V m c main_v12) (V m c main_v13) (V m c main_v14) :=
  (dats m 0 c).arrAt_eq_of_cover 3 _ (fun t _ => flushed_eq m c t) (cover)

end Cert.KernelIdeal.Whole

end
-- ==== Proof.HostPrefix.lean ====
/-
  What the kernel's region finds in its three input arrays: the host operations that run before it, read back.

  * The aggregated features. Edge e carries a destination id row(e), a source id col(e) and a weight val(e). A negative
    source id is wrapped by adding the number of nodes (array indexing's rule), the source rows of X are gathered, each
    scaled by its edge's weight, and the scaled rows are added into a zero array at their destination ids:
        agg(n, d) = Σ_{e : row(e) = n} val(e) · X(col(e), d).
    `agg` below is that chain of whole-array operations, kept as ONE function of the four argument arrays; nothing in this
    certificate opens it, because the reference program applies the very same chain.
  * The weights, transposed (Wt(k, o) = W(o, k)).
  * The bias vector recast as a one-row matrix.
-/
import proofs.«114713_j54554674594289_1_alg».proof.Proof.Gen.KernelIdeal.Frame
import Idealize.ShloMosaic.Lib.StableHlo.Run

noncomputable section

namespace Cert.KernelIdeal.Prefix

open Cert.KernelIdeal Cert.KernelIdeal.Gen Idealize.ShloMosaic Idealize.ShloMosaic.TcCoe Idealize.SL.Sem Idealize.ShloMosaic.StableHlo

variable {F : FTy → Type} [FloatOps F]

/-- The neighbourhood sums: the rows of x0 gathered at the wrapped source ids x2, scaled by the edge weights x3 and added
    into zeros at the destination ids x1. -/
def agg (x0 : (⟨S100000x128, .f32⟩ : BufTy).Contents (Elt F)) (x1 x2 : (⟨S1600000, .i32⟩ : BufTy).Contents (Elt F))
    (x3 : (⟨S1600000, .f32⟩ : BufTy).Contents (Elt F)) : (⟨S100000x128, .f32⟩ : BufTy).Contents (Elt F) :=
  Host.scatterAdd scatter_S100000x128_S1600000x1_S1600000x128_1_0_0_1 (broadcastInDim S100000x128 ![] bcast_S_S100000x128 (constant (F := F) S_ .f32 0x00000000#32)) (broadcastInDim S1600000x1 ![0] bcast_S1600000_S1600000x1_0 x1) (mulf (broadcastInDim S1600000x128 ![0, 1] bcast_S1600000x1_S1600000x128_0_1 (broadcastInDim S1600000x1 ![0] bcast_S1600000_S1600000x1_0 x3)) (Host.gather gather_S100000x128_S1600000x1_S1600000x128_1_0_n_n_0_1_1128 x0 (broadcastInDim S1600000x1 ![0] bcast_S1600000_S1600000x1_0 (select (cmpi .slt x2 (broadcastInDim S1600000 ![] bcast_S_S1600000 (constantI S_ 32 0#32))) (addi x2 (broadcastInDim S1600000 ![] bcast_S_S1600000 (constantI S_ 32 100000#32))) x2))))

variable (m : (ℓ : Loc nD τ sig) → Buf (Elt F) ℓ)

/-- The first window's array holds the neighbourhood sums of the argument arrays. -/
theorem V_agg (c : Dev nD) :
    (V m c main_v12 : (⟨S100000x128, .f32⟩ : BufTy).Contents (Elt F))
      = agg (m ((c : Thread nD τ).loc main_arg0)) (m ((c : Thread nD τ).loc main_arg1)) (m ((c : Thread nD τ).loc main_arg2)) (m ((c : Thread nD τ).loc main_arg3)) := by
  dsimp only [Gen.V, Gen.hostOps0]
  after_results <;> rfl

/-- The second window's array holds the weights transposed. -/
theorem V_wt (c : Dev nD) :
    (V m c main_v13 : (⟨S128x128, .f32⟩ : BufTy).Contents (Elt F))
      = transpose S128x128 [1, 0] (m ((c : Thread nD τ).loc main_arg4)) transposes_S128x128_S128x128_1_0 := by
  dsimp only [Gen.V, Gen.hostOps0]
  after_results <;> rfl

/-- The third window's array holds the bias recast as one row. -/
theorem V_row (c : Dev nD) :
    (V m c main_v14 : (⟨S1x128, .f32⟩ : BufTy).Contents (Elt F))
      = shapeCast S1x128 (m ((c : Thread nD τ).loc main_arg5)) shapeCasts_S128_S1x128 := by
  dsimp only [Gen.V, Gen.hostOps0]
  after_results <;> rfl

end Cert.KernelIdeal.Prefix

end
-- ==== Proof.RefDense.lean ====
/-
  The reference program read entry by entry. After the neighbourhood sums it contracts them with the weights as stored —
  `dot_general` over the feature axis of both operands, so output feature o meets row o of W — and adds the bias, laid
  first as one row and then along every row. At node n and output feature o that is
      Σ_k agg(n, k) · W(o, k) + b(o),
  which is `Dense.affineT` of the neighbourhood sums, the weights and the bias. The neighbourhood sums stay one unopened
  function of the argument arrays.
-/
import proofs.«114713_j54554674594289_1_alg».proof.Proof.Gen.ReferenceIdeal.Read
import proofs.«114713_j54554674594289_1_alg».proof.Proof.DenseSpec

noncomputable section

open scoped BigOperators

namespace Cert.ReferenceIdeal.Entrywise

open Cert.ReferenceIdeal Cert.ReferenceIdeal.Read Idealize.ShloMosaic Idealize.ShloMosaic.ValueIdx

/-- The contraction reads the left operand at (n, k), -/
theorem lidx_eq (i : S100000x128.Idx) (k : Fin 128) : lidx_main_v13 i k = ix2 (i 0) k :=
  funext fun a => Fin.ext (by match a with | ⟨0, _⟩ => rfl | ⟨1, _⟩ => rfl)

/-- and the right operand at (o, k): row o of the weights. -/
theorem ridx_eq (i : S100000x128.Idx) (k : Fin 128) : ridx_main_v13 i k = ix2 (i 1) k :=
  funext fun a => Fin.ext (by match a with | ⟨0, _⟩ => rfl | ⟨1, _⟩ => rfl)

/-- The bias laid as one row and then along every row reads the vector at the column. -/
theorem bidx_eq (i : S100000x128.Idx) : idx_main_v14 (idx_main_v15 i) = ix1 (i 1) :=
  funext fun a => Fin.ext (by match a with | ⟨0, _⟩ => rfl)

/-- The reference's result is `Dense.affineT` of its neighbourhood sums, the weights as stored and the bias vector. -/
theorem result_eq (x0 : (⟨S100000x128, .f32⟩ : BufTy).Contents (Elt Ideal)) (x1 x2 : (⟨S1600000, .i32⟩ : BufTy).Contents (Elt Ideal))
    (x3 : (⟨S1600000, .f32⟩ : BufTy).Contents (Elt Ideal)) (x4 : (⟨S128x128, .f32⟩ : BufTy).Contents (Elt Ideal))
    (x5 : (⟨S128, .f32⟩ : BufTy).Contents (Elt Ideal)) :
    val_main_v16 (F := Ideal) x0 x1 x2 x3 x4 x5
      = Cert.Dense.affineT (val_main_v12 (F := Ideal) x0 x1 x2 x3) x4 x5 := by
  funext i
  rw [val_main_v16_apply, val_main_v13_apply, val_main_v15_apply, val_main_v14_apply]
  simp only [lidx_eq, ridx_eq, bidx_eq]
  rfl

end Cert.ReferenceIdeal.Entrywise

end
-- ==== Proof.Bridge.lean ====
/-
  The two programs compute one function. Both start with the same chain of host operations — the neighbourhood sums
  agg(n, d) = Σ_{e : row(e) = n} val(e) · X(col(e), d) — spelt identically, so the two spellings are one term. The kernel
  then hands the region agg, the weights transposed and the bias as one row, and the region's tiles assemble
  `Dense.affine` of those; the reference contracts agg with the weights as stored and adds the bias vector, which is
  `Dense.affineT`. Reading the transpose and the one-row recast entry by entry identifies the two (DenseSpec). No
  finiteness of the inputs is used anywhere: each side is the same finite sum of the same products plus the same bias.
-/
import proofs.«114713_j54554674594289_1_alg».proof.Proof.HostPrefix
import proofs.«114713_j54554674594289_1_alg».proof.Proof.RefDense

noncomputable section

namespace Cert.Bridge

open Idealize.ShloMosaic

/-- The kernel program's neighbourhood sums and the reference's are the same chain of operations on the same arrays. -/
theorem agg_eq (x0 : (⟨Cert.KernelIdeal.S100000x128, .f32⟩ : BufTy).Contents (Elt Ideal))
    (x1 x2 : (⟨Cert.KernelIdeal.S1600000, .i32⟩ : BufTy).Contents (Elt Ideal))
    (x3 : (⟨Cert.KernelIdeal.S1600000, .f32⟩ : BufTy).Contents (Elt Ideal)) :
    Cert.KernelIdeal.Prefix.agg (F := Ideal) x0 x1 x2 x3 = Cert.ReferenceIdeal.Read.val_main_v12 (F := Ideal) x0 x1 x2 x3 := rfl

/-- What the kernel's output array ends holding — `Dense.affine` of its neighbourhood sums, the transposed weights and
    the bias recast as one row — is the reference's result on the same argument arrays. -/
theorem kernel_eq_reference (x0 : (⟨Cert.KernelIdeal.S100000x128, .f32⟩ : BufTy).Contents (Elt Ideal))
    (x1 x2 : (⟨Cert.KernelIdeal.S1600000, .i32⟩ : BufTy).Contents (Elt Ideal))
    (x3 : (⟨Cert.KernelIdeal.S1600000, .f32⟩ : BufTy).Contents (Elt Ideal))
    (x4 : (⟨Cert.KernelIdeal.S128x128, .f32⟩ : BufTy).Contents (Elt Ideal))
    (x5 : (⟨Cert.KernelIdeal.S128, .f32⟩ : BufTy).Contents (Elt Ideal)) :
    Cert.Dense.affine (M := 100000) (K := 128) (N := 128) (Cert.KernelIdeal.Prefix.agg (F := Ideal) x0 x1 x2 x3)
        (transpose Cert.KernelIdeal.S128x128 [1, 0] x4 Cert.KernelIdeal.Facts₀.transposes_S128x128_S128x128_1_0)
        (shapeCast Cert.KernelIdeal.S1x128 x5 Cert.KernelIdeal.Facts₀.shapeCasts_S128_S1x128)
      = Cert.ReferenceIdeal.Read.val_main_v16 (F := Ideal) x0 x1 x2 x3 x4 x5 := by
  rw [Cert.ReferenceIdeal.Entrywise.result_eq, ← agg_eq]
  exact Cert.Dense.affine_eq_affineT (M := 100000) (K := 128) (N := 128) _ x4 x5 _ _

end Cert.Bridge

end
-- ==== Proof.lean ====
/-
  One layer of a graph convolution over an edge list, kernel against reference, on the extended reals.

  Both programs first form the neighbourhood sums agg(n, d) = Σ_{e : row(e) = n} val(e) · X(col(e), d) on the host, by the
  same gather, scaling and scatter-add, and then apply the dense step  out(n, o) = Σ_k agg(n, k) · W(o, k) + b(o).
  The kernel does the dense step in 20 tiles of 5000 rows: each tile multiplies its rows of agg by the transposed weights
  into a zero accumulator (after a recast to bf16, the identity on the ideal values) and adds the bias laid as one row.
  The reference contracts agg with W over the feature axis of both and adds the bias vector along every row.

  * KernelTile: entry (p, q) of a tile is Σ_k x(p, k) · w(k, q) + r(0, q).
  * KernelArray: tile t is rows 5000·t … 5000·t + 4999, the tiles cover the output, so the output array is
    `Dense.affine` of the three arrays the region found.
  * HostPrefix: those arrays are agg, the transpose of W, and b recast as one row.
  * RefDense: the reference's result is `Dense.affineT` of agg, W and b.
  * DenseSpec, Bridge: `Dense.affine agg Wᵀ [b] = Dense.affineT agg W b`, term by term; agg is never opened.
  The sums on the two sides have the same terms in the same order, so the precondition (finite inputs) is not used. The
  idealization rewrote nothing, so the kernel's idealized program is its own text read on the extended reals.
-/
import proofs.«114713_j54554674594289_1_alg».proof.Defs
import proofs.«114713_j54554674594289_1_alg».proof.Proof.Gen.Kernel
import proofs.«114713_j54554674594289_1_alg».proof.Proof.Gen.Kernel.Skeleton
import proofs.«114713_j54554674594289_1_alg».proof.Proof.Gen.Kernel.Launch
import proofs.«114713_j54554674594289_1_alg».proof.Proof.Gen.Kernel.Points
import proofs.«114713_j54554674594289_1_alg».proof.Proof.Gen.Kernel.Frame
import proofs.«114713_j54554674594289_1_alg».proof.Proof.Gen.KernelIdeal
import proofs.«114713_j54554674594289_1_alg».proof.Proof.Gen.KernelIdeal.Skeleton
import proofs.«114713_j54554674594289_1_alg».proof.Proof.Gen.KernelIdeal.Launch
import proofs.«114713_j54554674594289_1_alg».proof.Proof.Gen.KernelIdeal.Points
import proofs.«114713_j54554674594289_1_alg».proof.Proof.Gen.KernelIdeal.Frame
import proofs.«114713_j54554674594289_1_alg».proof.Proof.Gen.KernelIdeal.Value
import proofs.«114713_j54554674594289_1_alg».proof.Proof.Gen.ReferenceIdeal
import proofs.«114713_j54554674594289_1_alg».proof.Proof.Gen.ReferenceIdeal.Run
import proofs.«114713_j54554674594289_1_alg».proof.Proof.Gen.ReferenceIdeal.Read
import proofs.«114713_j54554674594289_1_alg».proof.Proof.Gen.Pre_finite_inputs
import proofs.«114713_j54554674594289_1_alg».proof.Proof.KernelArray
import proofs.«114713_j54554674594289_1_alg».proof.Proof.Bridge
import Idealize.ShloMosaic.Adequacy
import Idealize.ShloMosaic.Init

noncomputable section

namespace Cert.Proof

open Idealize.ShloMosaic Idealize.ShloMosaic.TcCoe Idealize.SL.Sem

/-- The kernel as printed runs, and leaves its arguments as they were. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The reference is a straight line of host operations: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the six arguments both programs end with the output array at the reference's function of
    the arguments: the kernel's tiles assemble `Dense.affine` of agg, Wᵀ and the bias row, which is that function. -/
theorem algebraic : Cert.algebraic_KernelIdeal_ReferenceIdeal := by
  intro m ρ m' ρ' _ hagree
  refine ⟨fun c => Cert.ReferenceIdeal.Read.val_main_v16 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · refine (θ_run Cert.KernelIdeal.defs _ _).mono (fun r h c => ⟨(h c).1.trans ?_, (h c).2⟩)
      (Cert.KernelIdeal.Value.run_blocks m ρ)
    rw [Cert.KernelIdeal.Whole.final m c, Cert.KernelIdeal.Prefix.V_agg m c, Cert.KernelIdeal.Prefix.V_wt m c,
      Cert.KernelIdeal.Prefix.V_row m c]
    exact Cert.Bridge.kernel_eq_reference _ _ _ _ _ _
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v16_eq, (hagree c).1, (hagree c).2.1, (hagree c).2.2.1, (hagree c).2.2.2.1,
      (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
